-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x1x128x128 : Shape := ⟨4, ![16, 1, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x1x128x128 : S_.BroadcastsInDim S16x1x128x128 (![] : Fin 0 → Fin S16x1x128x128.rank)
  reducesTo_S16x1x128x128_S_d0_1_2_3 : S16x1x128x128.ReducesTo [0, 1, 2, 3] S_

variable [Facts]

def fn {F : FTy → Type} [FloatOps F] (main_arg0 : FVec F S16x256x128x128 .f32) (main_arg1 : FVec F S16x1x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x1x128x128 .f32 := Host.absf main_arg1
  let main_cst_0 : FVec F S_ .f32 := constant S_ .f32 0x7F800000#32
  let main_v5 : FVec F S16x1x128x128 .f32 := broadcastInDim S16x1x128x128 ![] bcast_S_S16x1x128x128 main_cst_0
  let main_v6 : IVec S16x1x128x128 1 := cmpf .olt main_v4 main_v5
  let main_c_1 : IVec S_ 1 := constantI S_ 1 1#1
  let main_v7 : IVec S_ 1 := (fun x v => Host.reduce IntOp.andi x v reducesTo_S16x1x128x128_S_d0_1_2_3 h_S_) main_v6 main_c_1
  let main_v8 : IVec S_ 1 := andi main_v3 main_v7
  main_v8
-- ==== Kernel.lean ====
abbrev S16x256x128x128 : Shape := ⟨4, ![16, 256, 128, 128]⟩
abbrev S16x1x128x128 : Shape := ⟨4, ![16, 1, 128, 128]⟩
abbrev S1x64x128x128 : Shape := ⟨4, ![1, 64, 128, 128]⟩
abbrev S1x1x128x128 : Shape := ⟨4, ![1, 1, 128, 128]⟩
abbrev S64x128x128 : Shape := ⟨3, ![64, 128, 128]⟩
abbrev S128x128 : Shape := ⟨2, ![128, 128]⟩
abbrev S1x128x128 : Shape := ⟨3, ![1, 128, 128]⟩
abbrev S64x127x128 : Shape := ⟨3, ![64, 127, 128]⟩
abbrev S64x1x128 : Shape := ⟨3, ![64, 1, 128]⟩
abbrev S64x126x128 : Shape := ⟨3, ![64, 126, 128]⟩
abbrev S64x2x128 : Shape := ⟨3, ![64, 2, 128]⟩
abbrev S64x124x128 : Shape := ⟨3, ![64, 124, 128]⟩
abbrev S64x4x128 : Shape := ⟨3, ![64, 4, 128]⟩
abbrev S64x120x128 : Shape := ⟨3, ![64, 120, 128]⟩
abbrev S64x8x128 : Shape := ⟨3, ![64, 8, 128]⟩
abbrev S64x112x128 : Shape := ⟨3, ![64, 112, 128]⟩
abbrev S64x16x128 : Shape := ⟨3, ![64, 16, 128]⟩
abbrev S64x96x128 : Shape := ⟨3, ![64, 96, 128]⟩
abbrev S64x32x128 : Shape := ⟨3, ![64, 32, 128]⟩
abbrev S64x64x128 : Shape := ⟨3, ![64, 64, 128]⟩
abbrev S64x128x127 : Shape := ⟨3, ![64, 128, 127]⟩
abbrev S64x128x1 : Shape := ⟨3, ![64, 128, 1]⟩
abbrev S64x128x126 : Shape := ⟨3, ![64, 128, 126]⟩
abbrev S64x128x2 : Shape := ⟨3, ![64, 128, 2]⟩
abbrev S64x128x124 : Shape := ⟨3, ![64, 128, 124]⟩
abbrev S64x128x4 : Shape := ⟨3, ![64, 128, 4]⟩
abbrev S64x128x120 : Shape := ⟨3, ![64, 128, 120]⟩
abbrev S64x128x8 : Shape := ⟨3, ![64, 128, 8]⟩
abbrev S64x128x112 : Shape := ⟨3, ![64, 128, 112]⟩
abbrev S64x128x16 : Shape := ⟨3, ![64, 128, 16]⟩
abbrev S64x128x96 : Shape := ⟨3, ![64, 128, 96]⟩
abbrev S64x128x32 : Shape := ⟨3, ![64, 128, 32]⟩
abbrev S64x128x64 : Shape := ⟨3, ![64, 128, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x256x128x128, .f32⟩
  | .hbm, ⟨1, _⟩ => ⟨S16x1x128x128, .f32⟩
  | .hbm, ⟨2, _⟩ => ⟨S16x256x128x128, .f32⟩
  | .local _ .vmem, ⟨0, _⟩ => ⟨S1x64x128x128, .f32⟩
  | .local _ .vmem, ⟨1, _⟩ => ⟨S1x64x128x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x64x128x128, .f32⟩
  | .local _ .vmem, ⟨5, _⟩ => ⟨S1x64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  shapeCasts_S128x128_S1x128x128 : S128x128.ShapeCasts S1x128x128
  broadcasts_S1x128x128_S64x128x128 : S1x128x128.Broadcasts S64x128x128
  slices_S64x128x128_o0_1_0_S64x127x128 : S64x128x128.Slices ![0, 1, 0] S64x127x128
  concatenates_S64x127x128_S64x1x128_S64x128x128_d1 : Shape.Concatenates [S64x127x128, S64x1x128] S64x128x128 1
  slices_S64x128x128_o0_2_0_S64x126x128 : S64x128x128.Slices ![0, 2, 0] S64x126x128
  concatenates_S64x126x128_S64x2x128_S64x128x128_d1 : Shape.Concatenates [S64x126x128, S64x2x128] S64x128x128 1
  slices_S64x128x128_o0_4_0_S64x124x128 : S64x128x128.Slices ![0, 4, 0] S64x124x128
  concatenates_S64x124x128_S64x4x128_S64x128x128_d1 : Shape.Concatenates [S64x124x128, S64x4x128] S64x128x128 1
  slices_S64x128x128_o0_8_0_S64x120x128 : S64x128x128.Slices ![0, 8, 0] S64x120x128
  concatenates_S64x120x128_S64x8x128_S64x128x128_d1 : Shape.Concatenates [S64x120x128, S64x8x128] S64x128x128 1
  slices_S64x128x128_o0_16_0_S64x112x128 : S64x128x128.Slices ![0, 16, 0] S64x112x128
  concatenates_S64x112x128_S64x16x128_S64x128x128_d1 : Shape.Concatenates [S64x112x128, S64x16x128] S64x128x128 1
  slices_S64x128x128_o0_32_0_S64x96x128 : S64x128x128.Slices ![0, 32, 0] S64x96x128
  concatenates_S64x96x128_S64x32x128_S64x128x128_d1 : Shape.Concatenates [S64x96x128, S64x32x128] S64x128x128 1
  slices_S64x128x128_o0_64_0_S64x64x128 : S64x128x128.Slices ![0, 64, 0] S64x64x128
  concatenates_S64x64x128_S64x64x128_S64x128x128_d1 : Shape.Concatenates [S64x64x128, S64x64x128] S64x128x128 1
  slices_S64x128x128_o0_0_1_S64x128x127 : S64x128x128.Slices ![0, 0, 1] S64x128x127
  concatenates_S64x128x127_S64x128x1_S64x128x128_d2 : Shape.Concatenates [S64x128x127, S64x128x1] S64x128x128 2
  slices_S64x128x128_o0_0_2_S64x128x126 : S64x128x128.Slices ![0, 0, 2] S64x128x126
  concatenates_S64x128x126_S64x128x2_S64x128x128_d2 : Shape.Concatenates [S64x128x126, S64x128x2] S64x128x128 2
  slices_S64x128x128_o0_0_4_S64x128x124 : S64x128x128.Slices ![0, 0, 4] S64x128x124
  concatenates_S64x128x124_S64x128x4_S64x128x128_d2 : Shape.Concatenates [S64x128x124, S64x128x4] S64x128x128 2
  slices_S64x128x128_o0_0_8_S64x128x120 : S64x128x128.Slices ![0, 0, 8] S64x128x120
  concatenates_S64x128x120_S64x128x8_S64x128x128_d2 : Shape.Concatenates [S64x128x120, S64x128x8] S64x128x128 2
  slices_S64x128x128_o0_0_16_S64x128x112 : S64x128x128.Slices ![0, 0, 16] S64x128x112
  concatenates_S64x128x112_S64x128x16_S64x128x128_d2 : Shape.Concatenates [S64x128x112, S64x128x16] S64x128x128 2
  slices_S64x128x128_o0_0_32_S64x128x96 : S64x128x128.Slices ![0, 0, 32] S64x128x96
  concatenates_S64x128x96_S64x128x32_S64x128x128_d2 : Shape.Concatenates [S64x128x96, S64x128x32] S64x128x128 2
  slices_S64x128x128_o0_0_64_S64x128x64 : S64x128x128.Slices ![0, 0, 64] S64x128x64
  concatenates_S64x128x64_S64x128x64_S64x128x128_d2 : Shape.Concatenates [S64x128x64, S64x128x64] S64x128x128 2
  shapeCasts_S64x128x128_S1x64x128x128 : S64x128x128.ShapeCasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x256x128x128.size a
  hwx0_0 : ∀ i : grid0.Coords, EltTy.bits .f32 = 32 ∨ (Rect.block (s := S16x256x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x128.size a ≤ S16x1x128x128.size a
  hwx0_1 : ∀ i : grid0.Coords, EltTy.bits .f32 = 32 ∨ (Rect.block (s := S16x1x128x128) S1x1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S16x256x128x128.size a
  hwx0_2 : ∀ i : grid0.Coords, EltTy.bits .f32 = 32 ∨ (Rect.block (s := S16x256x128x128) S1x64x128x128.size (cc0_transform_2 i) (hinb0_2 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x1x128x128 : Shape := ⟨4, ![16, 1, 128, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x1x128x128, .f32⟩
  | .hbm, ⟨2, _⟩ => ⟨S16x256x128x128, .f32⟩
  | .hbm, ⟨3, _⟩ => ⟨S16x256x128x128, .f32⟩
  | .hbm, ⟨4, _⟩ => ⟨S_, .f32⟩
  | .hbm, ⟨5, _⟩ => ⟨S_, .f32⟩
  | .hbm, ⟨6, _⟩ => ⟨S16x256x128x128, .f32⟩
  | .hbm, ⟨7, _⟩ => ⟨S_, .f32⟩
  | .hbm, ⟨8, _⟩ => ⟨S_, .f32⟩
  | .hbm, ⟨9, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_call1_cst : Ref sig .tc := ⟨.hbm, 7, rfl⟩
abbrev main_call1_v0 : Ref sig .tc := ⟨.hbm, 8, rfl⟩
abbrev main_v3 : Ref sig .tc := ⟨.hbm, 9, rfl⟩

abbrev nD : Nat := 1
abbrev τ : Topo := Topo.v7x

variable {F : FTy → Type} [FloatOps F]

class Facts₀ : Prop where
  bcast_S16x1x128x128_S16x256x128x128_0_1_2_3 : S16x1x128x128.BroadcastsInDim S16x256x128x128 (![0, 1, 2, 3] : Fin 4 → Fin S16x256x128x128.rank)
  bcast_S_S_ : S_.BroadcastsInDim S_ (![] : Fin 0 → Fin S_.rank)
  reduceWindows_S16x256x128x128_S16x256x128x128_w1s1p0_0_w1s1p0_0_w128s1p0_127_w1s1p0_0 : S16x256x128x128.ReduceWindows (![1, 1, 128, 1] : Fin 4 → Nat) ![1, 1, 1, 1] ![0, 0, 0, 0] ![0, 0, 127, 0] S16x256x128x128
  h_S_ : 0 < S_.numel
  reduceWindows_S16x256x128x128_S16x256x128x128_w1s1p0_0_w1s1p0_0_w1s1p0_0_w128s1p0_127 : S16x256x128x128.ReduceWindows (![1, 1, 1, 128] : Fin 4 → Nat) ![1, 1, 1, 1] ![0, 0, 0, 0] ![0, 0, 0, 127] S16x256x128x128

variable [Facts₀]

class Facts : Prop extends Facts₀ where

variable [Facts]
-- ==== Proof.LibBufCast.lean ====
/-
  A tensor value carried to its buffer's type and back is the value.

  A typed reference pairs a buffer with the fact that the buffer's type is the value's type; `toBuf` carries a value
  along that fact to the buffer's type and `ofBuf` carries it back. The round trip is the identity.
-/
import Idealize.ShloMosaic.Lib.StableHlo

namespace Cert.LibBufCast

open Idealize.ShloMosaic Idealize.ShloMosaic.StableHlo

/-- `ofBuf` after `toBuf` at the same typed reference is the identity. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibBufCast
-- ==== Proof.LibSufMax.lean ====
/-
  Greatest values over runs of consecutive positions, on the extended reals.

  A finite sequence `f : Fin n → EReal` is carried to all naturals by the value `⊥` past its end (`ext`), so that a
  run of positions that overhangs the end needs no case split: the overhanging positions contribute the neutral
  element of `max`. `win s g j` is the greatest of `g` over the `s` positions `j, j+1, …, j+s-1`.

  * `win_double`: two adjacent runs of length `s` make the run of length `s + s` — the step of a doubling scan.
  * `win_ext_bot`: a run that starts at or past the end of the sequence has the value `⊥`.
  * `foldl_max_finRange`: a left fold of `max` from `⊥` over the positions of `Fin N` is the greatest value.
  * `sup_univ_eq_win`: the greatest over `d : Fin K` of the sequence at `j + d` is the run of length `K` from `j`.
-/
import Mathlib.Order.Interval.Finset.Nat
import Mathlib.Data.EReal.Basic
import Mathlib.Data.List.Range
import Mathlib.Data.Fintype.Basic

noncomputable section

namespace Cert.LibSufMax

/-- A sequence of length `n`, carried to every natural position: `⊥` from position `n` on. -/
def ext (n : ℕ) (f : Fin n → EReal) : ℕ → EReal := fun k => if h : k < n then f ⟨k, h⟩ else ⊥

theorem ext_of_lt {n : ℕ} (f : Fin n → EReal) {k : ℕ} (h : k < n) : ext n f k = f ⟨k, h⟩ := dif_pos h

theorem ext_of_le {n : ℕ} (f : Fin n → EReal) {k : ℕ} (h : n ≤ k) : ext n f k = ⊥ := dif_neg (Nat.not_lt.2 h)

/-- The greatest of `g` over the `s` positions from `j` on. -/
def win (s : ℕ) (g : ℕ → EReal) (j : ℕ) : EReal := (Finset.Ico j (j + s)).sup g

/-- A run of one position is the value there. -/
theorem win_one (g : ℕ → EReal) (j : ℕ) : win 1 g j = g j := by
  unfold win
  rw [Nat.Ico_succ_singleton, Finset.sup_singleton]

/-- Two adjacent runs of length `s` make the run of length `s + s`. -/
theorem win_double (s : ℕ) (g : ℕ → EReal) (j : ℕ) : max (win s g j) (win s g (j + s)) = win (s + s) g j := by
  unfold win
  rw [← Finset.sup_union, Finset.Ico_union_Ico_eq_Ico (Nat.le_add_right _ _) (Nat.le_add_right _ _),
    Nat.add_assoc]

/-- A run that starts at or past the end of a sequence carried by `⊥` is `⊥`. -/
theorem win_ext_bot {n : ℕ} (f : Fin n → EReal) (s : ℕ) {j : ℕ} (h : n ≤ j) : win s (ext n f) j = ⊥ := by
  unfold win
  rw [Finset.sup_eq_bot_iff]
  intro k hk
  exact ext_of_le f (le_trans h (Finset.mem_Ico.1 hk).1)

/-- A left fold of `max` over a list is the start value joined with the greatest value over the list. -/
theorem foldl_max {ι : Type} [DecidableEq ι] (l : List ι) (g : ι → EReal) (a : EReal) :
    l.foldl (fun r n => max r (g n)) a = a ⊔ l.toFinset.sup g := by
  induction l generalizing a with
  | nil => simp
  | cons x xs ih =>
    rw [List.foldl_cons, ih, List.toFinset_cons, Finset.sup_insert, sup_assoc]

/-- A left fold of `max` from `⊥` over all of `Fin N` is the greatest value over `Fin N`. -/
theorem foldl_max_finRange {N : ℕ} (g : Fin N → EReal) :
    (List.finRange N).foldl (fun r n => max r (g n)) ⊥ = Finset.univ.sup g := by
  rw [foldl_max, List.toFinset_finRange, bot_sup_eq]

/-- The greatest over `d : Fin K` of the carried sequence at `j + d` is the run of length `K` from `j`. -/
theorem sup_univ_eq_win (K : ℕ) (g : ℕ → EReal) (j : ℕ) :
    (Finset.univ : Finset (Fin K)).sup (fun d => g (j + d.val)) = win K g j := by
  unfold win
  apply le_antisymm
  · refine Finset.sup_le fun d _ => ?_
    exact Finset.le_sup (f := g) (Finset.mem_Ico.2 ⟨Nat.le_add_right _ _, Nat.add_lt_add_left d.isLt _⟩)
  · refine Finset.sup_le fun k hk => ?_
    obtain ⟨h1, h2⟩ := Finset.mem_Ico.1 hk
    have hd : k - j < K := by omega
    have := Finset.le_sup (f := fun d : Fin K => g (j + d.val)) (Finset.mem_univ (⟨k - j, hd⟩ : Fin K))
    simpa [Nat.add_sub_cancel' h1] using this

end Cert.LibSufMax

end
-- ==== Proof.LibWindowMax.lean ====
/-
  A window reduction by `max` along one axis of a rank-4 array, on the extended reals.

  `Host.reduceWindow max` with a window of extent `K` on one axis and extent one on the others, unit strides, no
  padding at the low end and the initial value `⊥`, folds `max` over the `K` window positions: the operand where the
  position is inside the array, `⊥` where it is padding. Read at an index it is the greatest of the operand over the
  `K` positions of that axis from the index on, positions past the end counting as `⊥`
  (`reduceWindow_max_axis2`, `reduceWindow_max_axis3`).
-/
import Idealize.ShloMosaic.PureOps.Contract
import Idealize.ShloMosaic.Lib.ValueIdx
import proofs.«146321_j326417514939_1_alg».proof.Proof.LibSufMax

noncomputable section

namespace Cert.LibWindowMax

open Idealize.ShloMosaic Idealize.ShloMosaic.ValueIdx Cert.LibSufMax

/-- The rank-4 shape with the given extents. -/
abbrev A4 (n0 n1 n2 n3 : ℕ) : Shape := ⟨4, ![n0, n1, n2, n3]⟩

variable {n0 n1 n2 n3 : ℕ}

/-! ## Along axis 2 -/

/-- One window position's contribution along axis 2: the operand where the position is inside the array, `⊥` where
    it is padding. -/
def cell2 (K : ℕ) (x : (A4 n0 n1 n2 n3).Idx → EReal) (a : Fin n0) (b : Fin n1) (j : Fin n2) (e : Fin n3)
    (idx : (⟨4, ![1, 1, K, 1]⟩ : Shape).Idx) : EReal :=
  if hin : ∀ ax : Fin 4, (![0, 0, 0, 0] : Fin 4 → ℕ) ax ≤ (ix4 a b j e ax).val * (![1, 1, 1, 1] : Fin 4 → ℕ) ax + (idx ax).val
      ∧ (ix4 a b j e ax).val * (![1, 1, 1, 1] : Fin 4 → ℕ) ax + (idx ax).val - (![0, 0, 0, 0] : Fin 4 → ℕ) ax < (A4 n0 n1 n2 n3).size ax
  then x (fun ax => ⟨(ix4 a b j e ax).val * (![1, 1, 1, 1] : Fin 4 → ℕ) ax + (idx ax).val - (![0, 0, 0, 0] : Fin 4 → ℕ) ax, (hin ax).2⟩)
  else ⊥

/-- That contribution is the carried sequence of the operand along axis 2, at the window position. -/
theorem cell2_eq (K : ℕ) (x : (A4 n0 n1 n2 n3).Idx → EReal) (a : Fin n0) (b : Fin n1) (j : Fin n2) (e : Fin n3)
    (idx : (⟨4, ![1, 1, K, 1]⟩ : Shape).Idx) :
    cell2 K x a b j e idx = ext n2 (fun k => x (ix4 a b k e)) (j.val + (idx 2).val) := by
  have h0 : (idx 0).val < 1 := (idx 0).isLt
  have h1 : (idx 1).val < 1 := (idx 1).isLt
  have h2 : (idx 2).val < K := (idx 2).isLt
  have h3 : (idx 3).val < 1 := (idx 3).isLt
  unfold cell2
  by_cases hlt : j.val + (idx 2).val < n2
  · rw [dif_pos, ext_of_lt _ hlt]
    · refine congrArg x (funext fun ax => Fin.ext ?_)
      match ax with
      | ⟨0, _⟩ => show a.val * 1 + (idx 0).val - 0 = a.val; omega
      | ⟨1, _⟩ => show b.val * 1 + (idx 1).val - 0 = b.val; omega
      | ⟨2, _⟩ => show j.val * 1 + (idx 2).val - 0 = j.val + (idx 2).val; omega
      | ⟨3, _⟩ => show e.val * 1 + (idx 3).val - 0 = e.val; omega
    · intro ax
      match ax with
      | ⟨0, _⟩ => show 0 ≤ a.val * 1 + (idx 0).val ∧ a.val * 1 + (idx 0).val - 0 < n0; have := a.isLt; omega
      | ⟨1, _⟩ => show 0 ≤ b.val * 1 + (idx 1).val ∧ b.val * 1 + (idx 1).val - 0 < n1; have := b.isLt; omega
      | ⟨2, _⟩ => show 0 ≤ j.val * 1 + (idx 2).val ∧ j.val * 1 + (idx 2).val - 0 < n2; have := j.isLt; omega
      | ⟨3, _⟩ => show 0 ≤ e.val * 1 + (idx 3).val ∧ e.val * 1 + (idx 3).val - 0 < n3; have := e.isLt; omega
  · rw [dif_neg, ext_of_le _ (Nat.not_lt.1 hlt)]
    intro hin
    have hb : j.val * 1 + (idx 2).val - 0 < n2 := (hin 2).2
    omega

/-- A window of extent `K` along axis 2. -/
theorem reduceWindow_max_axis2 (K : ℕ) (hi : Fin 4 → ℕ) (x : (A4 n0 n1 n2 n3).Idx → EReal) {u : Shape}
    (init : u.Idx → EReal) (hv : ∀ i, init i = ⊥)
    (h : (A4 n0 n1 n2 n3).ReduceWindows ![1, 1, K, 1] ![1, 1, 1, 1] ![0, 0, 0, 0] hi (A4 n0 n1 n2 n3))
    (hu : 0 < u.numel) (a : Fin n0) (b : Fin n1) (j : Fin n2) (e : Fin n3) :
    Host.reduceWindow (max : EReal → EReal → EReal) ![1, 1, K, 1] ![1, 1, 1, 1] ![0, 0, 0, 0] hi x init h hu (ix4 a b j e)
      = win K (ext n2 fun k => x (ix4 a b k e)) j.val := by
  unfold Host.reduceWindow
  dsimp only
  rw [hv, foldl_max_finRange]
  show Finset.univ.sup (fun n => cell2 K x a b j e ((⟨4, ![1, 1, K, 1]⟩ : Shape).rowMajor.symm n)) = _
  simp only [cell2_eq]
  unfold win
  apply le_antisymm
  · refine Finset.sup_le fun n _ => ?_
    exact Finset.le_sup (f := ext n2 fun k => x (ix4 a b k e)) (Finset.mem_Ico.2 ⟨Nat.le_add_right _ _,
      Nat.add_lt_add_left (((⟨4, ![1, 1, K, 1]⟩ : Shape).rowMajor.symm n) 2).isLt _⟩)
  · refine Finset.sup_le fun k hk => ?_
    obtain ⟨hk1, hk2⟩ := Finset.mem_Ico.1 hk
    have hd : k - j.val < K := by omega
    refine le_trans (le_of_eq ?_) (Finset.le_sup (Finset.mem_univ
      ((⟨4, ![1, 1, K, 1]⟩ : Shape).rowMajor (ix4 (0 : Fin 1) (0 : Fin 1) (⟨k - j.val, hd⟩ : Fin K) (0 : Fin 1)))))
    rw [Equiv.symm_apply_apply]
    show ext n2 (fun k => x (ix4 a b k e)) k = ext n2 (fun k => x (ix4 a b k e)) (j.val + (k - j.val))
    rw [Nat.add_sub_cancel' hk1]

/-! ## Along axis 3 -/

/-- One window position's contribution along axis 3: the operand where the position is inside the array, `⊥` where
    it is padding. -/
def cell3 (K : ℕ) (x : (A4 n0 n1 n2 n3).Idx → EReal) (a : Fin n0) (b : Fin n1) (j : Fin n2) (e : Fin n3)
    (idx : (⟨4, ![1, 1, 1, K]⟩ : Shape).Idx) : EReal :=
  if hin : ∀ ax : Fin 4, (![0, 0, 0, 0] : Fin 4 → ℕ) ax ≤ (ix4 a b j e ax).val * (![1, 1, 1, 1] : Fin 4 → ℕ) ax + (idx ax).val
      ∧ (ix4 a b j e ax).val * (![1, 1, 1, 1] : Fin 4 → ℕ) ax + (idx ax).val - (![0, 0, 0, 0] : Fin 4 → ℕ) ax < (A4 n0 n1 n2 n3).size ax
  then x (fun ax => ⟨(ix4 a b j e ax).val * (![1, 1, 1, 1] : Fin 4 → ℕ) ax + (idx ax).val - (![0, 0, 0, 0] : Fin 4 → ℕ) ax, (hin ax).2⟩)
  else ⊥

/-- That contribution is the carried sequence of the operand along axis 3, at the window position. -/
theorem cell3_eq (K : ℕ) (x : (A4 n0 n1 n2 n3).Idx → EReal) (a : Fin n0) (b : Fin n1) (j : Fin n2) (e : Fin n3)
    (idx : (⟨4, ![1, 1, 1, K]⟩ : Shape).Idx) :
    cell3 K x a b j e idx = ext n3 (fun k => x (ix4 a b j k)) (e.val + (idx 3).val) := by
  have h0 : (idx 0).val < 1 := (idx 0).isLt
  have h1 : (idx 1).val < 1 := (idx 1).isLt
  have h2 : (idx 2).val < 1 := (idx 2).isLt
  have h3 : (idx 3).val < K := (idx 3).isLt
  unfold cell3
  by_cases hlt : e.val + (idx 3).val < n3
  · rw [dif_pos, ext_of_lt _ hlt]
    · refine congrArg x (funext fun ax => Fin.ext ?_)
      match ax with
      | ⟨0, _⟩ => show a.val * 1 + (idx 0).val - 0 = a.val; omega
      | ⟨1, _⟩ => show b.val * 1 + (idx 1).val - 0 = b.val; omega
      | ⟨2, _⟩ => show j.val * 1 + (idx 2).val - 0 = j.val; omega
      | ⟨3, _⟩ => show e.val * 1 + (idx 3).val - 0 = e.val + (idx 3).val; omega
    · intro ax
      match ax with
      | ⟨0, _⟩ => show 0 ≤ a.val * 1 + (idx 0).val ∧ a.val * 1 + (idx 0).val - 0 < n0; have := a.isLt; omega
      | ⟨1, _⟩ => show 0 ≤ b.val * 1 + (idx 1).val ∧ b.val * 1 + (idx 1).val - 0 < n1; have := b.isLt; omega
      | ⟨2, _⟩ => show 0 ≤ j.val * 1 + (idx 2).val ∧ j.val * 1 + (idx 2).val - 0 < n2; have := j.isLt; omega
      | ⟨3, _⟩ => show 0 ≤ e.val * 1 + (idx 3).val ∧ e.val * 1 + (idx 3).val - 0 < n3; have := e.isLt; omega
  · rw [dif_neg, ext_of_le _ (Nat.not_lt.1 hlt)]
    intro hin
    have hb : e.val * 1 + (idx 3).val - 0 < n3 := (hin 3).2
    omega

/-- A window of extent `K` along axis 3. -/
theorem reduceWindow_max_axis3 (K : ℕ) (hi : Fin 4 → ℕ) (x : (A4 n0 n1 n2 n3).Idx → EReal) {u : Shape}
    (init : u.Idx → EReal) (hv : ∀ i, init i = ⊥)
    (h : (A4 n0 n1 n2 n3).ReduceWindows ![1, 1, 1, K] ![1, 1, 1, 1] ![0, 0, 0, 0] hi (A4 n0 n1 n2 n3))
    (hu : 0 < u.numel) (a : Fin n0) (b : Fin n1) (j : Fin n2) (e : Fin n3) :
    Host.reduceWindow (max : EReal → EReal → EReal) ![1, 1, 1, K] ![1, 1, 1, 1] ![0, 0, 0, 0] hi x init h hu (ix4 a b j e)
      = win K (ext n3 fun k => x (ix4 a b j k)) e.val := by
  unfold Host.reduceWindow
  dsimp only
  rw [hv, foldl_max_finRange]
  show Finset.univ.sup (fun n => cell3 K x a b j e ((⟨4, ![1, 1, 1, K]⟩ : Shape).rowMajor.symm n)) = _
  simp only [cell3_eq]
  unfold win
  apply le_antisymm
  · refine Finset.sup_le fun n _ => ?_
    exact Finset.le_sup (f := ext n3 fun k => x (ix4 a b j k)) (Finset.mem_Ico.2 ⟨Nat.le_add_right _ _,
      Nat.add_lt_add_left (((⟨4, ![1, 1, 1, K]⟩ : Shape).rowMajor.symm n) 3).isLt _⟩)
  · refine Finset.sup_le fun k hk => ?_
    obtain ⟨hk1, hk2⟩ := Finset.mem_Ico.1 hk
    have hd : k - e.val < K := by omega
    refine le_trans (le_of_eq ?_) (Finset.le_sup (Finset.mem_univ
      ((⟨4, ![1, 1, 1, K]⟩ : Shape).rowMajor (ix4 (0 : Fin 1) (0 : Fin 1) (0 : Fin 1) (⟨k - e.val, hd⟩ : Fin K)))))
    rw [Equiv.symm_apply_apply]
    show ext n3 (fun k => x (ix4 a b j k)) k = ext n3 (fun k => x (ix4 a b j k)) (e.val + (k - e.val))
    rw [Nat.add_sub_cancel' hk1]

end Cert.LibWindowMax

end
-- ==== Proof.Spec.lean ====
/-
  The pooled array both programs compute, as one function of the two argument arrays, on the extended reals.

  With `x : [16, 256, 128, 128]` and `guide : [16, 1, 128, 128]`, the products are
  `v(b, c, h, w) = x(b, c, h, w) · guide(b, 0, h, w)`, and the result at `(b, c, h, w)` is the greatest of `v(b, c, h', w')`
  over the rows `h' ≥ h` and the columns `w' ≥ w`: first the greatest over the rows from `h` on in every column
  (`colMax`), then the greatest of those over the columns from `w` on (`pool`). Runs are written with `win 128` over
  sequences carried by `⊥` past position 127, so "from `h` on" is "the 128 positions from `h` on".
-/
import Idealize.ShloMosaic.PureOps.Ideal
import Idealize.ShloMosaic.Lib.ValueIdx
import proofs.«146321_j326417514939_1_alg».proof.Proof.LibSufMax

noncomputable section

namespace Cert.Spec

open Idealize.ShloMosaic Idealize.ShloMosaic.ValueIdx Cert.LibSufMax

/-- The shape of `x` and of the result. -/
abbrev SX : Shape := ⟨4, ![16, 256, 128, 128]⟩
/-- The shape of the guide. -/
abbrev SG : Shape := ⟨4, ![16, 1, 128, 128]⟩

/-- The guide-modulated entry. -/
def vprod (X : SX.Idx → EReal) (Gd : SG.Idx → EReal) (b : Fin 16) (c : Fin 256) (h w : Fin 128) : EReal :=
  X (ix4 b c h w) * Gd (ix4 b (0 : Fin 1) h w)

/-- The greatest of column `w` over the rows from `h` on. -/
def colMax (X : SX.Idx → EReal) (Gd : SG.Idx → EReal) (b : Fin 16) (c : Fin 256) (h w : Fin 128) : EReal :=
  win 128 (ext 128 fun k => vprod X Gd b c k w) h.val

/-- The greatest over the rows from `h` on and the columns from `w` on. -/
def pool (X : SX.Idx → EReal) (Gd : SG.Idx → EReal) (b : Fin 16) (c : Fin 256) (h w : Fin 128) : EReal :=
  win 128 (ext 128 fun k => colMax X Gd b c h k) w.val

/-- The result array. -/
def G (X : SX.Idx → EReal) (Gd : SG.Idx → EReal) : SX.Idx → EReal :=
  fun i => pool X Gd (i 0) (i 1) (i 2) (i 3)

theorem G_apply (X : SX.Idx → EReal) (Gd : SG.Idx → EReal) (b : Fin 16) (c : Fin 256) (h w : Fin 128) :
    G X Gd (ix4 b c h w) = pool X Gd b c h w := rfl

end Cert.Spec

end
-- ==== Proof.RefValue.lean ====
/-
  The reference computes the pooled array.

  The reference multiplies `x` by the guide broadcast over the channels and applies two window reductions by `max`,
  each with a window of 128 positions, 127 positions of padding at the far end and the initial value `-∞`: along
  axis 2 (rows), then along axis 3 (columns). A window of 128 from position `h` padded at the far end holds exactly the
  positions from `h` to the end of the axis, so the two reductions are the two runs of the specification.
-/
import proofs.«146321_j326417514939_1_alg».proof.ReferenceIdeal
import proofs.«146321_j326417514939_1_alg».proof.Proof.Gen.ReferenceIdeal
import proofs.«146321_j326417514939_1_alg».proof.Proof.LibWindowMax
import proofs.«146321_j326417514939_1_alg».proof.Proof.Spec
import Idealize.ShloMosaic.Lib.Pipeline.Value

noncomputable section

namespace Cert.ReferenceIdeal.RefValue

open Cert.ReferenceIdeal Cert.ReferenceIdeal.Gen Idealize.ShloMosaic Idealize.ShloMosaic.ValueIdx
open Cert.LibSufMax Cert.LibWindowMax Cert.Spec

/-- The initial value of both reductions is `⊥`. -/
theorem init_bot (i : S_.Idx) :
    broadcastInDim S_ ![] bcast_S_S_ (constant (F := Ideal) S_ .f32 0xFF800000#32) i = (⊥ : EReal) := by
  refine (broadcastInDim_apply _ bcast_S_S_ (constant (F := Ideal) S_ .f32 0xFF800000#32) i i (fun a => a.elim0)).trans ?_
  show Ideal.ofBits .f32 0xFF800000#32 = ⊥
  simp [Ideal.ofBits, Ideal.ieee]

/-- The guide broadcast over the channels, read at an index. -/
theorem guide_apply (x1 : SG.Idx → EReal) (b : Fin 16) (c : Fin 256) (h w : Fin 128) :
    broadcastInDim S16x256x128x128 ![0, 1, 2, 3] bcast_S16x1x128x128_S16x256x128x128_0_1_2_3 x1 (ix4 b c h w)
      = x1 (ix4 b (0 : Fin 1) h w) :=
  broadcastInDim_apply _ bcast_S16x1x128x128_S16x256x128x128_0_1_2_3 x1 (ix4 b c h w) (ix4 b (0 : Fin 1) h w) (fun a => match a with
    | ⟨0, _⟩ => by show b.val = if (16 : Nat) = 1 then 0 else b.val; rw [if_neg (by decide)]
    | ⟨1, _⟩ => by show 0 = if (1 : Nat) = 1 then 0 else c.val; rw [if_pos rfl]
    | ⟨2, _⟩ => by show h.val = if (128 : Nat) = 1 then 0 else h.val; rw [if_neg (by decide)]
    | ⟨3, _⟩ => by show w.val = if (128 : Nat) = 1 then 0 else w.val; rw [if_neg (by decide)])

/-- The reference's result term is the pooled array of its arguments. -/
theorem result_eq (x0 : SX.Idx → EReal) (x1 : SG.Idx → EReal) :
    Host.reduceWindow (FloatOps.maximumf (F := Ideal) (φ := .f32)) ![1, 1, 1, 128] ![1, 1, 1, 1] ![0, 0, 0, 0] ![0, 0, 0, 127]
      (Host.reduceWindow (FloatOps.maximumf (F := Ideal) (φ := .f32)) ![1, 1, 128, 1] ![1, 1, 1, 1] ![0, 0, 0, 0] ![0, 0, 127, 0]
        (mulf (F := Ideal) (s := S16x256x128x128) (φ := .f32) x0 (broadcastInDim S16x256x128x128 ![0, 1, 2, 3] bcast_S16x1x128x128_S16x256x128x128_0_1_2_3 x1))
        (broadcastInDim S_ ![] bcast_S_S_ (constant (F := Ideal) S_ .f32 0xFF800000#32))
        reduceWindows_S16x256x128x128_S16x256x128x128_w1s1p0_0_w1s1p0_0_w128s1p0_127_w1s1p0_0 h_S_)
      (broadcastInDim S_ ![] bcast_S_S_ (constant (F := Ideal) S_ .f32 0xFF800000#32))
      reduceWindows_S16x256x128x128_S16x256x128x128_w1s1p0_0_w1s1p0_0_w1s1p0_0_w128s1p0_127 h_S_
      = G x0 x1 := by
  funext i
  obtain ⟨b, c, h, w, rfl⟩ : ∃ (b : Fin 16) (c : Fin 256) (h w : Fin 128), i = ix4 b c h w :=
    ⟨i 0, i 1, i 2, i 3, eq_ix4 i⟩
  refine (reduceWindow_max_axis3 (n0 := 16) (n1 := 256) (n2 := 128) (n3 := 128) 128 _ _ _ init_bot _ _ b c h w).trans ?_
  rw [G_apply]
  unfold Cert.Spec.pool
  refine congrArg (fun f => win 128 (ext 128 f) w.val) (funext fun k => ?_)
  refine (reduceWindow_max_axis2 (n0 := 16) (n1 := 256) (n2 := 128) (n3 := 128) 128 _ _ _ init_bot _ _ b c h k).trans ?_
  unfold Cert.Spec.colMax
  refine congrArg (fun f => win 128 (ext 128 f) h.val) (funext fun k' => ?_)
  show x0 (ix4 b c k' k) * broadcastInDim S16x256x128x128 ![0, 1, 2, 3] bcast_S16x1x128x128_S16x256x128x128_0_1_2_3 x1 (ix4 b c k' k) = vprod x0 x1 b c k' k
  rw [guide_apply]
  rfl

end Cert.ReferenceIdeal.RefValue

end
-- ==== Proof.LibShiftMax.lean ====
/-
  One step of a doubling scan for the greatest value along an axis of a rank-3 array, on the extended reals.

  The step takes an array `v`, cuts off its first `s` positions along the axis, pads the far end with `s` copies of a
  constant `c`, and takes the entrywise greater of `v` and that shifted copy. Read at a position `j` of the axis the
  shifted copy is `v` at `j + s` where that is inside the array and `c` past its end (`shift1_apply`,
  `shift2_apply`). When `c = ⊥` and `v` holds, at every position, the greatest of an array `v0` over the `s` positions
  from there on (`runs1 s v0`, `runs2 s v0`; positions past the end count as `⊥`), the step yields the greatest over
  the `s + s` positions from there on (`shiftMax1_runs`, `shiftMax2_runs`): two adjacent runs of length `s` make one of
  length `s + s`. A run of length one is the array itself (`runs1_one`, `runs2_one`), so the first step, from the
  array itself, yields runs of length two (`shiftMax1_start`, `shiftMax2_start`).
-/
import Idealize.ShloMosaic.Lib.Pipeline.Value
import Idealize.ShloMosaic.Lib.ValueIdx
import Idealize.ShloMosaic.PureOps.Ideal
import proofs.«146321_j326417514939_1_alg».proof.Proof.LibSufMax

noncomputable section

namespace Cert.LibShiftMax

open Idealize.ShloMosaic Idealize.ShloMosaic.ValueIdx Cert.LibSufMax

/-- The f32 word of negative infinity is the least extended real. -/
theorem ofBits_neg_inf : Ideal.ofBits .f32 0xFF800000#32 = (⊥ : EReal) := by simp [Ideal.ofBits, Ideal.ieee]

/-- The rank-3 shape with the given extents. -/
abbrev A3 (n0 n1 n2 : ℕ) : Shape := ⟨3, ![n0, n1, n2]⟩

variable {n0 n1 n2 : ℕ}

/-! ## Along axis 1 -/

/-- At every index, the greatest of `v` over the `s` positions of axis 1 from the index on. -/
def runs1 (s : ℕ) (v : (A3 n0 n1 n2).Idx → EReal) : (A3 n0 n1 n2).Idx → EReal :=
  fun i => win s (ext n1 fun k => v (ix3 (i 0) k (i 2))) (i 1).val

theorem runs1_apply (s : ℕ) (v : (A3 n0 n1 n2).Idx → EReal) (a : Fin n0) (j : Fin n1) (e : Fin n2) :
    runs1 s v (ix3 a j e) = win s (ext n1 fun k => v (ix3 a k e)) j.val := rfl

theorem runs1_one (v : (A3 n0 n1 n2).Idx → EReal) : runs1 1 v = v := by
  funext i
  obtain ⟨a, j, e, rfl⟩ : ∃ (a : Fin n0) (j : Fin n1) (e : Fin n2), i = ix3 a j e := ⟨i 0, i 1, i 2, eq_ix3 i⟩
  rw [runs1_apply, win_one, ext_of_lt _ j.isLt]

/-- The step along axis 1: `v` against itself moved `s` positions towards the start, `c` filling the end. -/
def shiftMax1 (m s : ℕ) (c : Ideal .f32) (hs : (A3 n0 n1 n2).Slices ![0, s, 0] (A3 n0 m n2))
    (hc : Shape.Concatenates [A3 n0 m n2, A3 n0 s n2] (A3 n0 n1 n2) 1) (v : FVec Ideal (A3 n0 n1 n2) .f32) :
    FVec Ideal (A3 n0 n1 n2) .f32 :=
  maximumf v (concatenate (A3 n0 n1 n2) 1 [⟨A3 n0 m n2, extractStridedSlice (A3 n0 m n2) ![0, s, 0] v hs⟩,
    ⟨A3 n0 s n2, broadcast (A3 n0 s n2) c⟩] hc)

/-- The moved copy at a position: the array `s` positions on, or the filling constant past the end. -/
theorem shift1_apply (m s : ℕ) (c : EReal) (hs : (A3 n0 n1 n2).Slices ![0, s, 0] (A3 n0 m n2))
    (hc : Shape.Concatenates [A3 n0 m n2, A3 n0 s n2] (A3 n0 n1 n2) 1) (hm : m + s = n1)
    (v : (A3 n0 n1 n2).Idx → EReal) (a : Fin n0) (j : Fin n1) (e : Fin n2) :
    concatenate (A3 n0 n1 n2) 1 [⟨A3 n0 m n2, extractStridedSlice (A3 n0 m n2) ![0, s, 0] v hs⟩,
      ⟨A3 n0 s n2, broadcast (A3 n0 s n2) c⟩] hc (ix3 a j e)
      = if h : j.val + s < n1 then v (ix3 a ⟨j.val + s, h⟩ e) else c := by
  by_cases h : j.val + s < n1
  · rw [dif_pos h]
    have hjm : j.val < m := by omega
    refine (concatenate_pair_apply_left (1 : Fin (A3 n0 n1 n2).rank) _ _ hc (ix3 a j e) rfl (ix3 a ⟨j.val, hjm⟩ e)
      (fun b => ?_)).trans ?_
    · match b with
      | ⟨0, _⟩ => rfl
      | ⟨1, _⟩ => rfl
      | ⟨2, _⟩ => rfl
    · exact extractStridedSlice_apply _ _ hs _ (ix3 a ⟨j.val + s, h⟩ e) (fun ax => by
        match ax with
        | ⟨0, _⟩ => exact (Nat.zero_add _).symm
        | ⟨1, _⟩ => exact Nat.add_comm _ _
        | ⟨2, _⟩ => exact (Nat.zero_add _).symm)
  · rw [dif_neg h]
    have hjm : m ≤ j.val := by omega
    have hd : j.val - m < s := by have := j.isLt; omega
    refine (concatenate_pair_apply_right (1 : Fin (A3 n0 n1 n2).rank) _ _ hc (ix3 a j e) rfl rfl
      (ix3 a ⟨j.val - m, hd⟩ e) (fun b hb => ?_) ?_).trans rfl
    · match b with
      | ⟨0, _⟩ => rfl
      | ⟨1, _⟩ => exact absurd rfl hb
      | ⟨2, _⟩ => rfl
    · show j.val - m + m = j.val
      omega

/-- The step along axis 1 doubles the runs. -/
theorem shiftMax1_runs (m s : ℕ) (c : Ideal .f32) (hs : (A3 n0 n1 n2).Slices ![0, s, 0] (A3 n0 m n2))
    (hc : Shape.Concatenates [A3 n0 m n2, A3 n0 s n2] (A3 n0 n1 n2) 1) (hm : m + s = n1) (hcb : c = (⊥ : EReal))
    (v0 : (A3 n0 n1 n2).Idx → EReal) :
    shiftMax1 m s c hs hc (runs1 s v0) = runs1 (s + s) v0 := by
  funext i
  obtain ⟨a, j, e, rfl⟩ : ∃ (a : Fin n0) (j : Fin n1) (e : Fin n2), i = ix3 a j e := ⟨i 0, i 1, i 2, eq_ix3 i⟩
  show max (runs1 s v0 (ix3 a j e)) (concatenate (A3 n0 n1 n2) 1 [⟨A3 n0 m n2, extractStridedSlice (A3 n0 m n2) ![0, s, 0] (runs1 s v0) hs⟩,
      ⟨A3 n0 s n2, broadcast (A3 n0 s n2) c⟩] hc (ix3 a j e)) = runs1 (s + s) v0 (ix3 a j e)
  rw [shift1_apply m s c hs hc hm, runs1_apply, runs1_apply, ← win_double]
  congr 1
  by_cases h : j.val + s < n1
  · rw [dif_pos h, runs1_apply]
  · rw [dif_neg h, hcb]
    exact (win_ext_bot _ s (Nat.not_lt.1 h)).symm

/-- The first step along axis 1, from the array itself: runs of length two. -/
theorem shiftMax1_start (m : ℕ) (c : Ideal .f32) (hs : (A3 n0 n1 n2).Slices ![0, 1, 0] (A3 n0 m n2))
    (hc : Shape.Concatenates [A3 n0 m n2, A3 n0 1 n2] (A3 n0 n1 n2) 1) (hm : m + 1 = n1) (hcb : c = (⊥ : EReal))
    (v0 : (A3 n0 n1 n2).Idx → EReal) :
    shiftMax1 m 1 c hs hc v0 = runs1 2 v0 := by
  have h := shiftMax1_runs m 1 c hs hc hm hcb v0
  rw [runs1_one] at h
  exact h

/-! ## Along axis 2 -/

/-- At every index, the greatest of `v` over the `s` positions of axis 2 from the index on. -/
def runs2 (s : ℕ) (v : (A3 n0 n1 n2).Idx → EReal) : (A3 n0 n1 n2).Idx → EReal :=
  fun i => win s (ext n2 fun k => v (ix3 (i 0) (i 1) k)) (i 2).val

theorem runs2_apply (s : ℕ) (v : (A3 n0 n1 n2).Idx → EReal) (a : Fin n0) (j : Fin n1) (e : Fin n2) :
    runs2 s v (ix3 a j e) = win s (ext n2 fun k => v (ix3 a j k)) e.val := rfl

theorem runs2_one (v : (A3 n0 n1 n2).Idx → EReal) : runs2 1 v = v := by
  funext i
  obtain ⟨a, j, e, rfl⟩ : ∃ (a : Fin n0) (j : Fin n1) (e : Fin n2), i = ix3 a j e := ⟨i 0, i 1, i 2, eq_ix3 i⟩
  rw [runs2_apply, win_one, ext_of_lt _ e.isLt]

/-- The step along axis 2: `v` against itself moved `s` positions towards the start, `c` filling the end. -/
def shiftMax2 (m s : ℕ) (c : Ideal .f32) (hs : (A3 n0 n1 n2).Slices ![0, 0, s] (A3 n0 n1 m))
    (hc : Shape.Concatenates [A3 n0 n1 m, A3 n0 n1 s] (A3 n0 n1 n2) 2) (v : FVec Ideal (A3 n0 n1 n2) .f32) :
    FVec Ideal (A3 n0 n1 n2) .f32 :=
  maximumf v (concatenate (A3 n0 n1 n2) 2 [⟨A3 n0 n1 m, extractStridedSlice (A3 n0 n1 m) ![0, 0, s] v hs⟩,
    ⟨A3 n0 n1 s, broadcast (A3 n0 n1 s) c⟩] hc)

/-- The moved copy at a position: the array `s` positions on, or the filling constant past the end. -/
theorem shift2_apply (m s : ℕ) (c : EReal) (hs : (A3 n0 n1 n2).Slices ![0, 0, s] (A3 n0 n1 m))
    (hc : Shape.Concatenates [A3 n0 n1 m, A3 n0 n1 s] (A3 n0 n1 n2) 2) (hm : m + s = n2)
    (v : (A3 n0 n1 n2).Idx → EReal) (a : Fin n0) (j : Fin n1) (e : Fin n2) :
    concatenate (A3 n0 n1 n2) 2 [⟨A3 n0 n1 m, extractStridedSlice (A3 n0 n1 m) ![0, 0, s] v hs⟩,
      ⟨A3 n0 n1 s, broadcast (A3 n0 n1 s) c⟩] hc (ix3 a j e)
      = if h : e.val + s < n2 then v (ix3 a j ⟨e.val + s, h⟩) else c := by
  by_cases h : e.val + s < n2
  · rw [dif_pos h]
    have hem : e.val < m := by omega
    refine (concatenate_pair_apply_left (2 : Fin (A3 n0 n1 n2).rank) _ _ hc (ix3 a j e) rfl (ix3 a j ⟨e.val, hem⟩)
      (fun b => ?_)).trans ?_
    · match b with
      | ⟨0, _⟩ => rfl
      | ⟨1, _⟩ => rfl
      | ⟨2, _⟩ => rfl
    · exact extractStridedSlice_apply _ _ hs _ (ix3 a j ⟨e.val + s, h⟩) (fun ax => by
        match ax with
        | ⟨0, _⟩ => exact (Nat.zero_add _).symm
        | ⟨1, _⟩ => exact (Nat.zero_add _).symm
        | ⟨2, _⟩ => exact Nat.add_comm _ _)
  · rw [dif_neg h]
    have hem : m ≤ e.val := by omega
    have hd : e.val - m < s := by have := e.isLt; omega
    refine (concatenate_pair_apply_right (2 : Fin (A3 n0 n1 n2).rank) _ _ hc (ix3 a j e) rfl rfl
      (ix3 a j ⟨e.val - m, hd⟩) (fun b hb => ?_) ?_).trans rfl
    · match b with
      | ⟨0, _⟩ => rfl
      | ⟨1, _⟩ => rfl
      | ⟨2, _⟩ => exact absurd rfl hb
    · show e.val - m + m = e.val
      omega

/-- The step along axis 2 doubles the runs. -/
theorem shiftMax2_runs (m s : ℕ) (c : Ideal .f32) (hs : (A3 n0 n1 n2).Slices ![0, 0, s] (A3 n0 n1 m))
    (hc : Shape.Concatenates [A3 n0 n1 m, A3 n0 n1 s] (A3 n0 n1 n2) 2) (hm : m + s = n2) (hcb : c = (⊥ : EReal))
    (v0 : (A3 n0 n1 n2).Idx → EReal) :
    shiftMax2 m s c hs hc (runs2 s v0) = runs2 (s + s) v0 := by
  funext i
  obtain ⟨a, j, e, rfl⟩ : ∃ (a : Fin n0) (j : Fin n1) (e : Fin n2), i = ix3 a j e := ⟨i 0, i 1, i 2, eq_ix3 i⟩
  show max (runs2 s v0 (ix3 a j e)) (concatenate (A3 n0 n1 n2) 2 [⟨A3 n0 n1 m, extractStridedSlice (A3 n0 n1 m) ![0, 0, s] (runs2 s v0) hs⟩,
      ⟨A3 n0 n1 s, broadcast (A3 n0 n1 s) c⟩] hc (ix3 a j e)) = runs2 (s + s) v0 (ix3 a j e)
  rw [shift2_apply m s c hs hc hm, runs2_apply, runs2_apply, ← win_double]
  congr 1
  by_cases h : e.val + s < n2
  · rw [dif_pos h, runs2_apply]
  · rw [dif_neg h, hcb]
    exact (win_ext_bot _ s (Nat.not_lt.1 h)).symm

/-- The first step along axis 2, from the array itself: runs of length two. -/
theorem shiftMax2_start (m : ℕ) (c : Ideal .f32) (hs : (A3 n0 n1 n2).Slices ![0, 0, 1] (A3 n0 n1 m))
    (hc : Shape.Concatenates [A3 n0 n1 m, A3 n0 n1 1] (A3 n0 n1 n2) 2) (hm : m + 1 = n2) (hcb : c = (⊥ : EReal))
    (v0 : (A3 n0 n1 n2).Idx → EReal) :
    shiftMax2 m 1 c hs hc v0 = runs2 2 v0 := by
  have h := shiftMax2_runs m 1 c hs hc hm hcb v0
  rw [runs2_one] at h
  exact h

end Cert.LibShiftMax

end
-- ==== Proof.Payload.lean ====
/-
  What the kernel body stores, as a function of the two blocks it loads.

  The body multiplies the block of `x` (64 channels of a 128 × 128 image) entrywise by the one 128 × 128 block of the
  guide, then runs a doubling scan along the rows (axis 1: shifts 1, 2, 4, …, 64) and another along the columns
  (axis 2, the same shifts), each step taking the greater of the array and the array moved towards the start, `-∞`
  filling the end. After the shifts 1, 2, …, 2^(k-1) every entry holds the greatest of the 2^k entries from its position
  on; after all seven shifts it holds the greatest of all entries from its position to the end of the axis. So the
  stored block is, entry by entry, the greatest of the products over the rows from `h` on and the columns from `w` on.
-/
import proofs.«146321_j326417514939_1_alg».proof.Proof.Gen.KernelIdeal.Skeleton
import proofs.«146321_j326417514939_1_alg».proof.Proof.LibShiftMax
import Idealize.ShloMosaic.Lib.ValueLayout

noncomputable section

namespace Cert.KernelIdeal.Pay

open Cert.KernelIdeal Cert.KernelIdeal.Gen Idealize.ShloMosaic Idealize.ShloMosaic.ValueIdx Cert.LibSufMax Cert.LibShiftMax

/-- The filling constant of the scans: the f32 word of negative infinity. -/
abbrev ninf : Ideal .f32 := Scalar.ofBits .f32 0xFF800000#32

theorem ninf_bot : ninf = (⊥ : EReal) := ofBits_neg_inf

/-- The products the scans start from: the block of `x` times the guide's block, the guide shared by the channels. -/
def prod (x0 : Vec Ideal S1x64x128x128 .f32) (x1 : Vec Ideal S1x1x128x128 .f32) : FVec Ideal S64x128x128 .f32 :=
  mulf (shapeCast S64x128x128 x0 shapeCasts_S1x64x128x128_S64x128x128)
    (broadcastTo S64x128x128 (shapeCast S1x128x128 (shapeCast S128x128 x1 shapeCasts_S1x1x128x128_S128x128)
      shapeCasts_S128x128_S1x128x128) broadcasts_S1x128x128_S64x128x128)

set_option maxRecDepth 65536 in
/-- The first payload is the seven steps along axis 1 and the first step along axis 2, applied to the products. -/
theorem pay2_steps (x0 : Vec Ideal S1x64x128x128 .f32) (x1 : Vec Ideal S1x1x128x128 .f32) :
    k0_pay2 (F := Ideal) x0 x1 = shiftMax2 (n0 := 64) (n1 := 128) (n2 := 128) 127 1 ninf slices_S64x128x128_o0_0_1_S64x128x127 concatenates_S64x128x127_S64x128x1_S64x128x128_d2 (shiftMax1 (n0 := 64) (n1 := 128) (n2 := 128) 64 64 ninf slices_S64x128x128_o0_64_0_S64x64x128 concatenates_S64x64x128_S64x64x128_S64x128x128_d1 (shiftMax1 (n0 := 64) (n1 := 128) (n2 := 128) 96 32 ninf slices_S64x128x128_o0_32_0_S64x96x128 concatenates_S64x96x128_S64x32x128_S64x128x128_d1 (shiftMax1 (n0 := 64) (n1 := 128) (n2 := 128) 112 16 ninf slices_S64x128x128_o0_16_0_S64x112x128 concatenates_S64x112x128_S64x16x128_S64x128x128_d1 (shiftMax1 (n0 := 64) (n1 := 128) (n2 := 128) 120 8 ninf slices_S64x128x128_o0_8_0_S64x120x128 concatenates_S64x120x128_S64x8x128_S64x128x128_d1 (shiftMax1 (n0 := 64) (n1 := 128) (n2 := 128) 124 4 ninf slices_S64x128x128_o0_4_0_S64x124x128 concatenates_S64x124x128_S64x4x128_S64x128x128_d1 (shiftMax1 (n0 := 64) (n1 := 128) (n2 := 128) 126 2 ninf slices_S64x128x128_o0_2_0_S64x126x128 concatenates_S64x126x128_S64x2x128_S64x128x128_d1 (shiftMax1 (n0 := 64) (n1 := 128) (n2 := 128) 127 1 ninf slices_S64x128x128_o0_1_0_S64x127x128 concatenates_S64x127x128_S64x1x128_S64x128x128_d1 (prod x0 x1)))))))) := rfl

set_option maxRecDepth 65536 in
/-- The stored payload is the remaining six steps along axis 2 applied to the first payload, with a unit axis in front. -/
theorem pay1_steps (x0 : Vec Ideal S1x64x128x128 .f32) (x1 : Vec Ideal S1x1x128x128 .f32) :
    k0_pay1 (F := Ideal) (k0_pay2 x0 x1) (k0_pay3 x0 x1) (k0_pay4 (F := Ideal))
      = shapeCast S1x64x128x128 (shiftMax2 (n0 := 64) (n1 := 128) (n2 := 128) 64 64 ninf slices_S64x128x128_o0_0_64_S64x128x64 concatenates_S64x128x64_S64x128x64_S64x128x128_d2 (shiftMax2 (n0 := 64) (n1 := 128) (n2 := 128) 96 32 ninf slices_S64x128x128_o0_0_32_S64x128x96 concatenates_S64x128x96_S64x128x32_S64x128x128_d2 (shiftMax2 (n0 := 64) (n1 := 128) (n2 := 128) 112 16 ninf slices_S64x128x128_o0_0_16_S64x128x112 concatenates_S64x128x112_S64x128x16_S64x128x128_d2 (shiftMax2 (n0 := 64) (n1 := 128) (n2 := 128) 120 8 ninf slices_S64x128x128_o0_0_8_S64x128x120 concatenates_S64x128x120_S64x128x8_S64x128x128_d2 (shiftMax2 (n0 := 64) (n1 := 128) (n2 := 128) 124 4 ninf slices_S64x128x128_o0_0_4_S64x128x124 concatenates_S64x128x124_S64x128x4_S64x128x128_d2 (shiftMax2 (n0 := 64) (n1 := 128) (n2 := 128) 126 2 ninf slices_S64x128x128_o0_0_2_S64x128x126 concatenates_S64x128x126_S64x128x2_S64x128x128_d2 (k0_pay2 (F := Ideal) x0 x1))))))) shapeCasts_S64x128x128_S1x64x128x128 := rfl

/-- After the seven steps along axis 1 every entry is the greatest of its column from its row on; the first step along
    axis 2 then makes runs of length two along the rows. -/
theorem pay2_eq (x0 : Vec Ideal S1x64x128x128 .f32) (x1 : Vec Ideal S1x1x128x128 .f32) :
    k0_pay2 (F := Ideal) x0 x1 = runs2 2 (runs1 128 (prod x0 x1)) := by
  rw [pay2_steps]
  generalize prod x0 x1 = P
  have e1 : shiftMax1 (n0 := 64) (n1 := 128) (n2 := 128) 127 1 ninf slices_S64x128x128_o0_1_0_S64x127x128 concatenates_S64x127x128_S64x1x128_S64x128x128_d1 (P) = runs1 2 P :=
    shiftMax1_start 127 ninf _ _ rfl ninf_bot P
  have e2 : shiftMax1 (n0 := 64) (n1 := 128) (n2 := 128) 126 2 ninf slices_S64x128x128_o0_2_0_S64x126x128 concatenates_S64x126x128_S64x2x128_S64x128x128_d1 (runs1 2 P) = runs1 4 P :=
    shiftMax1_runs 126 2 ninf _ _ rfl ninf_bot P
  have e4 : shiftMax1 (n0 := 64) (n1 := 128) (n2 := 128) 124 4 ninf slices_S64x128x128_o0_4_0_S64x124x128 concatenates_S64x124x128_S64x4x128_S64x128x128_d1 (runs1 4 P) = runs1 8 P :=
    shiftMax1_runs 124 4 ninf _ _ rfl ninf_bot P
  have e8 : shiftMax1 (n0 := 64) (n1 := 128) (n2 := 128) 120 8 ninf slices_S64x128x128_o0_8_0_S64x120x128 concatenates_S64x120x128_S64x8x128_S64x128x128_d1 (runs1 8 P) = runs1 16 P :=
    shiftMax1_runs 120 8 ninf _ _ rfl ninf_bot P
  have e16 : shiftMax1 (n0 := 64) (n1 := 128) (n2 := 128) 112 16 ninf slices_S64x128x128_o0_16_0_S64x112x128 concatenates_S64x112x128_S64x16x128_S64x128x128_d1 (runs1 16 P) = runs1 32 P :=
    shiftMax1_runs 112 16 ninf _ _ rfl ninf_bot P
  have e32 : shiftMax1 (n0 := 64) (n1 := 128) (n2 := 128) 96 32 ninf slices_S64x128x128_o0_32_0_S64x96x128 concatenates_S64x96x128_S64x32x128_S64x128x128_d1 (runs1 32 P) = runs1 64 P :=
    shiftMax1_runs 96 32 ninf _ _ rfl ninf_bot P
  have e64 : shiftMax1 (n0 := 64) (n1 := 128) (n2 := 128) 64 64 ninf slices_S64x128x128_o0_64_0_S64x64x128 concatenates_S64x64x128_S64x64x128_S64x128x128_d1 (runs1 64 P) = runs1 128 P :=
    shiftMax1_runs 64 64 ninf _ _ rfl ninf_bot P
  rw [e1, e2, e4, e8, e16, e32, e64]
  exact shiftMax2_start 127 ninf _ _ rfl ninf_bot _

/-- The stored block: the greatest over the rows from `h` on, then over the columns from `w` on. -/
theorem stored_eq (x0 : Vec Ideal S1x64x128x128 .f32) (x1 : Vec Ideal S1x1x128x128 .f32) :
    k0_pay1 (F := Ideal) (k0_pay2 x0 x1) (k0_pay3 x0 x1) (k0_pay4 (F := Ideal))
      = shapeCast S1x64x128x128 (runs2 128 (runs1 128 (prod x0 x1))) shapeCasts_S64x128x128_S1x64x128x128 := by
  rw [pay1_steps, pay2_eq]
  generalize runs1 128 (prod x0 x1) = M
  have f2 : shiftMax2 (n0 := 64) (n1 := 128) (n2 := 128) 126 2 ninf slices_S64x128x128_o0_0_2_S64x128x126 concatenates_S64x128x126_S64x128x2_S64x128x128_d2 (runs2 2 M) = runs2 4 M :=
    shiftMax2_runs 126 2 ninf _ _ rfl ninf_bot M
  have f4 : shiftMax2 (n0 := 64) (n1 := 128) (n2 := 128) 124 4 ninf slices_S64x128x128_o0_0_4_S64x128x124 concatenates_S64x128x124_S64x128x4_S64x128x128_d2 (runs2 4 M) = runs2 8 M :=
    shiftMax2_runs 124 4 ninf _ _ rfl ninf_bot M
  have f8 : shiftMax2 (n0 := 64) (n1 := 128) (n2 := 128) 120 8 ninf slices_S64x128x128_o0_0_8_S64x128x120 concatenates_S64x128x120_S64x128x8_S64x128x128_d2 (runs2 8 M) = runs2 16 M :=
    shiftMax2_runs 120 8 ninf _ _ rfl ninf_bot M
  have f16 : shiftMax2 (n0 := 64) (n1 := 128) (n2 := 128) 112 16 ninf slices_S64x128x128_o0_0_16_S64x128x112 concatenates_S64x128x112_S64x128x16_S64x128x128_d2 (runs2 16 M) = runs2 32 M :=
    shiftMax2_runs 112 16 ninf _ _ rfl ninf_bot M
  have f32 : shiftMax2 (n0 := 64) (n1 := 128) (n2 := 128) 96 32 ninf slices_S64x128x128_o0_0_32_S64x128x96 concatenates_S64x128x96_S64x128x32_S64x128x128_d2 (runs2 32 M) = runs2 64 M :=
    shiftMax2_runs 96 32 ninf _ _ rfl ninf_bot M
  have f64 : shiftMax2 (n0 := 64) (n1 := 128) (n2 := 128) 64 64 ninf slices_S64x128x128_o0_0_64_S64x128x64 concatenates_S64x128x64_S64x128x64_S64x128x128_d2 (runs2 64 M) = runs2 128 M :=
    shiftMax2_runs 64 64 ninf _ _ rfl ninf_bot M
  rw [f2, f4, f8, f16, f32, f64]

end Cert.KernelIdeal.Pay

end
-- ==== Proof.Blocks.lean ====
/-
  The kernel's output array is the pooled array.

  The grid has 16 × 4 points. At point `(b, q)` the kernel loads the block of `x` with batch `b` and channels
  `64 q … 64 q + 63` (all rows and columns) and the guide's block with batch `b`, and writes back the block of the
  output at the same place as the block of `x`. A scan along the rows or the columns stays inside one channel's image,
  and a block holds whole images, so what point `(b, q)` writes back is the block of the pooled array at `(b, q)`
  (`flushed_eq`). The 64 blocks tile the array (`cover`), so the array after the run is the pooled array (`final`).
-/
import proofs.«146321_j326417514939_1_alg».proof.Proof.Gen.KernelIdeal.Value
import proofs.«146321_j326417514939_1_alg».proof.Proof.Payload
import proofs.«146321_j326417514939_1_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.LibSufMax Cert.LibShiftMax Cert.Spec Cert.KernelIdeal.Pay

/-! ## The stored block, entry by entry -/

/-- The products at an entry of the block: the entry of `x`'s block times the guide's entry at the same row and column. -/
theorem prod_apply (x0 : Vec Ideal S1x64x128x128 .f32) (x1 : Vec Ideal S1x1x128x128 .f32) (cc : Fin 64) (h w : Fin 128) :
    prod x0 x1 (ix3 cc h w) = x0 (ix4 (0 : Fin 1) cc h w) * x1 (ix4 (0 : Fin 1) (0 : Fin 1) h w) := by
  unfold prod
  show shapeCast S64x128x128 x0 shapeCasts_S1x64x128x128_S64x128x128 (ix3 cc h w)
    * broadcastTo S64x128x128 (shapeCast S1x128x128 (shapeCast S128x128 x1 shapeCasts_S1x1x128x128_S128x128)
      shapeCasts_S128x128_S1x128x128) broadcasts_S1x128x128_S64x128x128 (ix3 cc h w) = _
  rw [shapeCast_1abc_abc_apply]
  refine congrArg (fun z => x0 (ix4 (0 : Fin 1) cc h w) * z) ?_
  refine (broadcastTo_apply _ broadcasts_S1x128x128_S64x128x128 (ix3 cc h w) (ix3 (0 : Fin 1) h w) (fun a => ?_)).trans ?_
  · match a with
    | ⟨0, _⟩ => show 0 = if (1 : Nat) = 1 then 0 else cc.val; rw [if_pos rfl]
    | ⟨1, _⟩ => show h.val = if (128 : Nat) = 1 then 0 else h.val; rw [if_neg (by decide)]
    | ⟨2, _⟩ => show w.val = if (128 : Nat) = 1 then 0 else w.val; rw [if_neg (by decide)]
  · rw [shapeCast_ab_1ab_apply]
    refine shapeCast_apply x1 shapeCasts_S1x1x128x128_S128x128 (ix2 h w) (ix4 (0 : Fin 1) (0 : Fin 1) h w) ?_
    rw [Shape.rowMajor_val_four, Shape.rowMajor_val_two]
    show ((0 * 1 + 0) * 128 + h.val) * 128 + w.val = h.val * 128 + w.val
    omega

/-- If the block of `x` is the block of an array `X` at batch `bt` and channel block `ct`, and the guide's block that of
    `Gd` at batch `bt`, the stored block is the block of the pooled array there. -/
theorem stored_apply (x0 : Vec Ideal S1x64x128x128 .f32) (x1 : Vec Ideal S1x1x128x128 .f32)
    (X : SX.Idx → EReal) (Gd : SG.Idx → EReal) (bt : Fin 16) (ct : Fin 4)
    (hx0 : ∀ (cc : Fin 64) (h w : Fin 128),
      x0 (ix4 (0 : Fin 1) cc h w) = X (ix4 bt (⟨ct.val * 64 + cc.val, by omega⟩ : Fin 256) h w))
    (hx1 : ∀ (h w : Fin 128), x1 (ix4 (0 : Fin 1) (0 : Fin 1) h w) = Gd (ix4 bt (0 : Fin 1) h w))
    (u : Fin 1) (cc : Fin 64) (h w : Fin 128) :
    shapeCast S1x64x128x128 (runs2 128 (runs1 128 (prod x0 x1))) shapeCasts_S64x128x128_S1x64x128x128 (ix4 u cc h w)
      = Cert.Spec.pool X Gd bt (⟨ct.val * 64 + cc.val, by omega⟩ : Fin 256) h w := by
  rw [shapeCast_abc_1abc_apply, runs2_apply]
  unfold Cert.Spec.pool
  refine congrArg (fun f => win 128 (ext 128 f) w.val) (funext fun k => ?_)
  rw [runs1_apply]
  unfold Cert.Spec.colMax
  refine congrArg (fun f => win 128 (ext 128 f) h.val) (funext fun k' => ?_)
  rw [prod_apply, hx0, hx1]
  rfl

/-! ## The blocks of the windows -/

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps over the 64 grid points: the block of `x` moves with the output's block, the guide's block
    with its batch; the rows and columns are whole; the batch and the channel block stay in their ranges. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) < 16 ∧ win0_2.index t (1 : Fin 4) < 4
    ∧ win0_2.index t (2 : Fin 4) = 0 ∧ win0_2.index t (3 : Fin 4) = 0 :=
  (by decide +kernel : ∀ t : Fin grid0.N, _)

/-- Every (batch, channel block) is some point's. -/
theorem idx_onto : ∀ (q0 : Fin 16) (q1 : Fin 4), ∃ t : Fin cfg0.N, win0_2.index t = ![q0.val, q1.val, 0, 0] :=
  (by decide +kernel : ∀ (q0 : Fin 16) (q1 : Fin 4), ∃ t : Fin grid0.N, win0_2.index t = ![q0.val, q1.val, 0, 0])

/-- WHAT POINT `t` WRITES BACK is block `t` of the pooled array of the argument arrays. -/
theorem flushed_eq (c : Dev nD) (t : Fin cfg0.N) :
    (dats m 0 c).flushed 2 t
      = ((cfg0.win 2).blk t).view.read (Elt Ideal) (G (V m c main_arg0) (V m c main_arg1)) := by
  rw [Value.flushed2]
  unfold out0_2
  rw [View.canon_unit_zero hz]
  simp only [View.ld_unit_zero (S := S1x64x128x128) hz, View.ld_unit_zero (S := S1x1x128x128) hz]
  rw [stored_eq]
  obtain ⟨e00, e01, e02, e03, e10, e11, e12, e13, b0, b1, e22, e23⟩ := idx_facts t
  funext y
  obtain ⟨u, cc, h, w, rfl⟩ : ∃ (u : Fin 1) (cc : Fin 64) (h w : Fin 128), y = ix4 u cc h w :=
    ⟨y 0, y 1, y 2, y 3, eq_ix4 y⟩
  have hu : u.val = 0 := by omega
  show shapeCast S1x64x128x128 (runs2 128 (runs1 128 (prod (iblk m c 0 t) (iblk m c 1 t)))) shapeCasts_S64x128x128_S1x64x128x128 (ix4 u cc h w)
    = G (V m c main_arg0) (V m c main_arg1) (((cfg0.win 2).blk t).view.emb (ix4 u cc h w))
  have hemb : ((cfg0.win 2).blk t).view.emb (ix4 u cc h w)
      = ix4 (⟨win0_2.index t (0 : Fin 4), b0⟩ : Fin 16) (⟨win0_2.index t (1 : Fin 4) * 64 + cc.val, by omega⟩ : Fin 256) h w := by
    funext a; apply Fin.ext
    match a with
    | ⟨0, _⟩ => show win0_2.index t (0 : Fin 4) * 1 + 1 * u.val = win0_2.index t (0 : Fin 4); omega
    | ⟨1, _⟩ => show win0_2.index t (1 : Fin 4) * 64 + 1 * cc.val = win0_2.index t (1 : Fin 4) * 64 + cc.val; omega
    | ⟨2, _⟩ => show win0_2.index t (2 : Fin 4) * 128 + 1 * h.val = h.val; omega
    | ⟨3, _⟩ => show win0_2.index t (3 : Fin 4) * 128 + 1 * w.val = w.val; omega
  rw [hemb, G_apply]
  refine stored_apply (iblk m c 0 t) (iblk m c 1 t) (V m c main_arg0) (V m c main_arg1)
    (⟨win0_2.index t (0 : Fin 4), b0⟩ : Fin 16) (⟨win0_2.index t (1 : Fin 4), b1⟩ : Fin 4) ?_ ?_ u cc h w
  · intro cc h w
    show V m c main_arg0 (((cfg0.win 0).blk t).view.emb (ix4 (0 : Fin 1) cc h w)) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 64 + 1 * cc.val = win0_2.index t (1 : Fin 4) * 64 + cc.val; omega
    | ⟨2, _⟩ => show win0_0.index t (2 : Fin 4) * 128 + 1 * h.val = h.val; omega
    | ⟨3, _⟩ => show win0_0.index t (3 : Fin 4) * 128 + 1 * w.val = w.val; omega
  · intro h w
    show V m c main_arg1 (((cfg0.win 1).blk t).view.emb (ix4 (0 : Fin 1) (0 : Fin 1) h w)) = _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 1 + 1 * 0 = 0; omega
    | ⟨2, _⟩ => show win0_1.index t (2 : Fin 4) * 128 + 1 * h.val = h.val; omega
    | ⟨3, _⟩ => show win0_1.index t (3 : Fin 4) * 128 + 1 * w.val = w.val; omega

/-- An index of the array is in point `t`'s block iff each coordinate is in the block's range on its axis. -/
theorem mem_blk (t : Fin cfg0.N) (i : S16x256x128x128.Idx) :
    i ∈ ((cfg0.win 2).blk t).view.set ↔ ∀ a : Fin 4, win0_2.index t a * S1x64x128x128.size a ≤ (i a).val
      ∧ (i a).val < win0_2.index t a * S1x64x128x128.size a + S1x64x128x128.size a := by
  show i ∈ ((View.whole main_v0).slice (win0_2.rect t)).set ↔ _
  rw [View.set_slice_whole, Rect.mem_set_unit]
  exact Iff.rfl

/-- Every index of the output array is in the block of the point with its batch and its channel block. -/
theorem cover (i : S16x256x128x128.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE ARRAY after the run is the pooled array of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The frame run re-posted: the output array at the pooled array of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  Guide-conditioned directional max pooling: the kernel against its reference, on the extended reals.

  With `x : [16, 256, 128, 128]` and `guide : [16, 1, 128, 128]`, both programs form the products
  `v(b, c, h, w) = x(b, c, h, w) · guide(b, 0, h, w)` and return, at `(b, c, h, w)`, the greatest of `v(b, c, h', w')` over
  the rows `h' ≥ h` and the columns `w' ≥ w` (`Cert.Spec.G`).

  The kernel works on blocks of 64 channels of one batch entry and gets there by two doubling scans, along the rows and
  then along the columns: seven steps each, step `k` taking the greater of the array and the array moved `2^k` positions
  towards the start with `-∞` filling the end. After the steps `0 … k-1` an entry holds the greatest of the `2^k` entries
  from its position on — two adjacent runs of length `s` make one of length `2s` (`LibSufMax.win_double`,
  `LibShiftMax`) —, so after seven steps it holds the greatest of the 128 positions from its own on, the positions past
  the end counting as `-∞ = ⊥`: all the entries to the end of the axis (`Payload`, `Blocks`).

  The reference applies two window reductions by `max`, window 128, padded by 127 at the far end, initial value `-∞`:
  the same 128 positions from each index on (`LibWindowMax`, `RefValue`).

  No rewrite of the ideal pass applies to the kernel, so the kernel's idealization is its own text (`preserves` is
  trivial); the equation between the two results uses only the lattice laws of `max` on the extended reals and never
  the finiteness of the inputs.
-/
import proofs.«146321_j326417514939_1_alg».proof.Defs
import proofs.«146321_j326417514939_1_alg».proof.Proof.Gen.Kernel
import proofs.«146321_j326417514939_1_alg».proof.Proof.Gen.Kernel.Skeleton
import proofs.«146321_j326417514939_1_alg».proof.Proof.Gen.Kernel.Launch
import proofs.«146321_j326417514939_1_alg».proof.Proof.Gen.Kernel.Points
import proofs.«146321_j326417514939_1_alg».proof.Proof.Gen.Kernel.Frame
import proofs.«146321_j326417514939_1_alg».proof.Proof.Gen.KernelIdeal
import proofs.«146321_j326417514939_1_alg».proof.Proof.Gen.KernelIdeal.Skeleton
import proofs.«146321_j326417514939_1_alg».proof.Proof.Gen.KernelIdeal.Launch
import proofs.«146321_j326417514939_1_alg».proof.Proof.Gen.KernelIdeal.Points
import proofs.«146321_j326417514939_1_alg».proof.Proof.Gen.KernelIdeal.Frame
import proofs.«146321_j326417514939_1_alg».proof.Proof.Gen.ReferenceIdeal
import proofs.«146321_j326417514939_1_alg».proof.Proof.Gen.Pre_finite_inputs
import proofs.«146321_j326417514939_1_alg».proof.Proof.Gen.KernelIdeal.Value
import proofs.«146321_j326417514939_1_alg».proof.Proof.RefRun
import proofs.«146321_j326417514939_1_alg».proof.Proof.RefValue
import proofs.«146321_j326417514939_1_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on `x` and the guide, the kernel's output array ends at the pooled array of its arguments
    (`Blocks.run`) and the reference's result at the pooled array of its own (`RefValue.result_eq`): one array. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
